-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x8 : Shape := ⟨2, ![800000, 8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x8 .f32) (main_arg3 : FVec F S128x64 .f32) (main_arg4 : FVec F S64 .f32) (main_arg5 : FVec F S64x32 .f32) (main_arg6 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x8 : Shape := ⟨2, ![800000, 8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S10000x64 : Shape := ⟨2, ![10000, 64]⟩
abbrev S10000x1 : Shape := ⟨2, ![10000, 1]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S10000x32 : Shape := ⟨2, ![10000, 32]⟩
abbrev S1x32 : Shape := ⟨2, ![1, 32]⟩

abbrev nBuf : Space → Nat
  | .hbm => 81
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x8, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x32, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x32, .f32⟩
  | .hbm, ⟨74, _⟩ => ⟨S850000x32, .f32⟩
  | .hbm, ⟨75, _⟩ => ⟨S_, .f32⟩
  | .hbm, ⟨76, _⟩ => ⟨S50000x32, .f32⟩
  | .hbm, ⟨77, _⟩ => ⟨S850000x1, .i32⟩
  | .hbm, ⟨78, _⟩ => ⟨S50000x32, .f32⟩
  | .hbm, ⟨79, _⟩ => ⟨S1x32, .f32⟩
  | .hbm, ⟨80, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S10000x32, .f32⟩
  | .local _ .vmem, ⟨18, _⟩ => ⟨S10000x32, .f32⟩
  | .local _ .vmem, ⟨19, _⟩ => ⟨S10000x1, .f32⟩
  | .local _ .vmem, ⟨20, _⟩ => ⟨S10000x1, .f32⟩
  | .local _ .vmem, ⟨21, _⟩ => ⟨S10000x32, .f32⟩
  | .local _ .vmem, ⟨22, _⟩ => ⟨S10000x32, .f32⟩
  | .local _ .vmem, ⟨23, _⟩ => ⟨S5000x32, .f32⟩
  | .local _ .vmem, ⟨24, _⟩ => ⟨S5000x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![85], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S850000x64.size a
  hwx1_0 : ∀ i : grid1.Coords, EltTy.bits .f32 = 32 ∨ (Rect.block (s := S850000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S850000x64.size a
  hwx1_2 : ∀ i : grid1.Coords, EltTy.bits .f32 = 32 ∨ (Rect.block (s := S850000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S850000x32.size a
  hwx3_0 : ∀ i : grid3.Coords, EltTy.bits .f32 = 32 ∨ (Rect.block (s := S850000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S850000x1.size a
  hwx3_1 : ∀ i : grid3.Coords, EltTy.bits .f32 = 32 ∨ (Rect.block (s := S850000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S850000x32.size a
  hwx3_2 : ∀ i : grid3.Coords, EltTy.bits .f32 = 32 ∨ (Rect.block (s := S850000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S50000x32.size a
  hwx4_2 : ∀ i : grid4.Coords, EltTy.bits .f32 = 32 ∨ (Rect.block (s := S50000x32) S5000x32.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x8 : Shape := ⟨2, ![800000, 8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x8, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S50000x64, .f32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S50000x32, .f32⟩
  | .hbm, ⟨71, _⟩ => ⟨S_, .f32⟩
  | .hbm, ⟨72, _⟩ => ⟨S850000, .f32⟩
  | .hbm, ⟨73, _⟩ => ⟨S_, .f32⟩
  | .hbm, ⟨74, _⟩ => ⟨S50000, .f32⟩
  | .hbm, ⟨75, _⟩ => ⟨S850000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .i1⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000, .f32⟩
  | .hbm, ⟨103, _⟩ => ⟨S850000, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x32, .f32⟩
  | .hbm, ⟨113, _⟩ => ⟨S850000x1, .f32⟩
  | .hbm, ⟨114, _⟩ => ⟨S850000x32, .f32⟩
  | .hbm, ⟨115, _⟩ => ⟨S850000x32, .f32⟩
  | .hbm, ⟨116, _⟩ => ⟨S_, .f32⟩
  | .hbm, ⟨117, _⟩ => ⟨S50000x32, .f32⟩
  | .hbm, ⟨118, _⟩ => ⟨S850000x1, .i32⟩
  | .hbm, ⟨119, _⟩ => ⟨S50000x32, .f32⟩
  | .hbm, ⟨120, _⟩ => ⟨S1x32, .f32⟩
  | .hbm, ⟨121, _⟩ => ⟨S50000x32, .f32⟩
  | .hbm, ⟨122, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The idealized kernel's run with its RESULT named.  @main is twelve segments: seven stretches of host operations and
  five pallas_calls.  The buffer contents at each segment boundary are a fold from the launch memory (the frame module's
  `W0 … W12`): a host stretch applies its operations, a pallas_call replaces its output array by what its grid's
  write-backs leave.  Every weakly fair execution terminates with every unscoped buffer at the last boundary's contents
  `W12`; the frame statement reads the seven argument arrays there, and here the result array `main_v57` is read
  there too.  What `W12` holds at `main_v57` is computed, boundary by boundary, in the sibling modules.
-/
import proofs.«164812_j50663434224370_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the seven argument arrays as launched. -/
theorem run_named : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v57 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunV

end
-- ==== Proof.ChainA.lean ====
/-
  The kernel program's buffers when the first pallas_call is entered, after the 41 host operations that precede it:
  the source and destination node of every edge (the edge list with the self loops appended), the edge weights
  `dinv[src] · dinv[dst]` as a column, and the argument arrays untouched.  Each is the reference's own stage of the same
  name: the two programs apply the same operations to the same edge list.
-/
import proofs.«164812_j50663434224370_2_alg».proof.Proof.Gen.KernelIdeal.Frame
import proofs.«164812_j50663434224370_2_alg».proof.Proof.RefRead

set_option maxRecDepth 16384
set_option quotPrecheck false

noncomputable section

namespace Cert.GCN.Chain

open Cert.KernelIdeal Cert.KernelIdeal.Gen Cert.GCN
open Idealize.ShloMosaic Idealize.ShloMosaic.TcCoe Idealize.ShloMosaic.StableHlo Idealize.SL.Sem
open Cert.ReferenceIdeal.ReadP

variable {F : FTy → Type} [FloatOps F] (m : (ℓ : Loc nD τ sig) → Buf (Elt F) ℓ) (ρ : Dev nD → PrngReg) (c : Dev nD)

local notation "A0" => m ((c.tc : Thread nD τ).loc main_arg0)
local notation "A1" => m ((c.tc : Thread nD τ).loc main_arg1)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)

/-- The source node of every edge. -/
theorem W3_v3 : W3 m ρ c (Proc.devRef .tc main_v3) = val_main_v3 (F := F) A1 := by
  dsimp only [W3, W2, W1, W0, hostOps0, hostOps0_1, hostOps0_2]
  after_results_simp <;> rfl
/-- The destination node of every edge. -/
theorem W3_v6 : W3 m ρ c (Proc.devRef .tc main_v6) = val_main_v6 (F := F) A1 := by
  dsimp only [W3, W2, W1, W0, hostOps0, hostOps0_1, hostOps0_2]
  after_results_simp <;> rfl
set_option maxHeartbeats 2000000 in
/-- The edge weights, as a column.  (The joining of the edge list with the self loops is carried as one opaque function of
    its two pieces while the operations' results are read back, and put back at the end.) -/
theorem W3_v30 : W3 m ρ c (Proc.devRef .tc main_v30) = shapeCast S850000x1 (val_main_v30 (F := F) A1) shapeCasts_S850000_S850000x1 := by
  dsimp only [W3, W2, W1, W0, hostOps0, hostOps0_1, hostOps0_2]
  generalize hcat : ((fun a b => concatenate S850000 0 [⟨S800000, a⟩, ⟨S50000, b⟩] concatenates_S800000_S50000_S850000_d0) :
    (⟨S800000, .i32⟩ : BufTy).Contents (Elt F) → (⟨S50000, .i32⟩ : BufTy).Contents (Elt F) → (⟨S850000, .i32⟩ : BufTy).Contents (Elt F)) = cat
  after_results_simp
  subst hcat
  rfl
theorem W3_arg0 : W3 m ρ c (Proc.devRef .tc main_arg0) = A0 := by
  dsimp only [W3, W2, W1, W0, hostOps0, hostOps0_1, hostOps0_2]
  after_results_simp <;> rfl
theorem W3_arg3 : W3 m ρ c (Proc.devRef .tc main_arg3) = A3 := by
  dsimp only [W3, W2, W1, W0, hostOps0, hostOps0_1, hostOps0_2]
  after_results_simp <;> rfl
theorem W3_arg4 : W3 m ρ c (Proc.devRef .tc main_arg4) = A4 := by
  dsimp only [W3, W2, W1, W0, hostOps0, hostOps0_1, hostOps0_2]
  after_results_simp <;> rfl
theorem W3_arg5 : W3 m ρ c (Proc.devRef .tc main_arg5) = A5 := by
  dsimp only [W3, W2, W1, W0, hostOps0, hostOps0_1, hostOps0_2]
  after_results_simp <;> rfl
theorem W3_arg6 : W3 m ρ c (Proc.devRef .tc main_arg6) = A6 := by
  dsimp only [W3, W2, W1, W0, hostOps0, hostOps0_1, hostOps0_2]
  after_results_simp <;> rfl

end Cert.GCN.Chain

end
-- ==== Proof.Payloads.lean ====
/-
  The five kernel bodies as plain arithmetic at the ideal instance, each read at one element of its output block, and
  the five whole-array functions the pallas_calls compute.

  * first projection: a block of 5000 rows of `x` times the whole `W1` — element (p, q) is `∑ k, x[p,k] · W1[k,q]`
    (the change of format to bf16 is the identity on extended reals, the accumulator is the zero splat);
  * edge scaling: a block of 10000 gathered rows times that block's column of edge weights — element (p, q) is
    `raw[p,q] · norm[p,0]`, for 64 and for 32 features;
  * fused second projection: `max (out1[p,k] + b1[0,k]) 0` contracted with `W2`;
  * final bias: `out2[p,q] + b2[0,q]`.
-/
import proofs.«164812_j50663434224370_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GCN

open Cert.KernelIdeal Cert.KernelIdeal.Gen Idealize.ShloMosaic Idealize.ShloMosaic.ValueIdx

/-! ## A column broadcast over the features -/

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The whole-array functions -/

/-- `x · W1`: row `i 0` of `x` against column `i 1` of `W1`. -/
def proj1 (x : Vec Ideal S50000x128 .f32) (w : Vec Ideal S128x64 .f32) : Vec Ideal S50000x64 .f32 :=
  fun i => ∑ k : Fin 128, x (ix2 (i 0) k) * w (ix2 k (i 1))

/-- Every gathered row scaled by its edge's weight, 64 features. -/
def scale64 (raw : Vec Ideal S850000x64 .f32) (nrm : Vec Ideal S850000x1 .f32) : Vec Ideal S850000x64 .f32 :=
  fun i => raw i * nrm (ix2 (i 0) (0 : Fin 1))

/-- `relu (a + b1) · W2`. -/
def proj2 (a : Vec Ideal S50000x64 .f32) (b : Vec Ideal S1x64 .f32) (w : Vec Ideal S64x32 .f32) : Vec Ideal S50000x32 .f32 :=
  fun i => ∑ k : Fin 64, max (a (ix2 (i 0) k) + b (ix2 (0 : Fin 1) k)) (Ideal.ofBits .f32 0x00000000#32) * w (ix2 k (i 1))

/-- Every gathered row scaled by its edge's weight, 32 features. -/
def scale32 (raw : Vec Ideal S850000x32 .f32) (nrm : Vec Ideal S850000x1 .f32) : Vec Ideal S850000x32 .f32 :=
  fun i => raw i * nrm (ix2 (i 0) (0 : Fin 1))

/-- The bias row added to every row. -/
def addBias (a : Vec Ideal S50000x32 .f32) (b : Vec Ideal S1x32 .f32) : Vec Ideal S50000x32 .f32 :=
  fun i => a i + b (ix2 (0 : Fin 1) (i 1))

/-! ## The first projection's body at an element -/

theorem lhs1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem rhs1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Element (p, q) of the first projection's output block: row `p` of the block of `x` against column `q` of `W1`. -/
theorem pay0_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs1_0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact rhs1_1 _ _)
  show x _ * w _ = _
  rw [el, er]

/-! ## The edge scaling's body at an element -/

theorem pay1_apply (x : Vec Ideal S10000x64 .f32) (n : Vec Ideal S10000x1 .f32) (p : Fin 10000) (q : Fin 64) :
    k1_pay1 (F := Ideal) x n (ix2 p q) = x (ix2 p q) * n (ix2 p (0 : Fin 1)) := by
  unfold k1_pay1
  show shapeCast S10000x64 x _ (ix2 p q) * broadcastTo S10000x64 (shapeCast S10000x1 n _) _ (ix2 p q) = _
  rw [shapeCast_self, shapeCast_self, broadcastTo_a1_ab_apply]

theorem pay3_apply (x : Vec Ideal S10000x32 .f32) (n : Vec Ideal S10000x1 .f32) (p : Fin 10000) (q : Fin 32) :
    k3_pay1 (F := Ideal) x n (ix2 p q) = x (ix2 p q) * n (ix2 p (0 : Fin 1)) := by
  unfold k3_pay1
  show shapeCast S10000x32 x _ (ix2 p q) * broadcastTo S10000x32 (shapeCast S10000x1 n _) _ (ix2 p q) = _
  rw [shapeCast_self, shapeCast_self, broadcastTo_a1_ab_apply]

/-! ## The final bias's body at an element -/

theorem pay4_apply (x : Vec Ideal S5000x32 .f32) (b : Vec Ideal S1x32 .f32) (p : Fin 5000) (q : Fin 32) :
    k4_pay1 (F := Ideal) x b (ix2 p q) = x (ix2 p q) + b (ix2 (0 : Fin 1) q) := by
  unfold k4_pay1
  show shapeCast S5000x32 x _ (ix2 p q) + broadcastTo S5000x32 (shapeCast S1x32 b _) _ (ix2 p q) = _
  rw [shapeCast_self, shapeCast_self, broadcastTo_1b_ab_apply]

/-! ## The fused second projection's body at an element -/

theorem lhs2_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem rhs2_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The rectified, biased block that enters the second projection, at (p, k). -/
theorem pre2_apply (x : Vec Ideal S5000x64 .f32) (b : Vec Ideal S1x64 .f32) (p : Fin 5000) (k : Fin 64) :
    maximumf (addf (shapeCast S5000x64 x shapeCasts_S5000x64_S5000x64) (broadcastTo S5000x64 (shapeCast S1x64 b shapeCasts_S1x64_S1x64) broadcasts_S1x64_S5000x64))
        (broadcast S5000x64 (Scalar.ofBits (F := Ideal) .f32 0x00000000#32)) (ix2 p k)
      = max (x (ix2 p k) + b (ix2 (0 : Fin 1) k)) (Ideal.ofBits .f32 0x00000000#32) := by
  show max (shapeCast S5000x64 x _ (ix2 p k) + broadcastTo S5000x64 (shapeCast S1x64 b _) _ (ix2 p k)) _ = _
  rw [shapeCast_self, shapeCast_self, broadcastTo_1b_ab_apply]
  rfl

theorem pay2_apply (x : Vec Ideal S5000x64 .f32) (b : Vec Ideal S1x64 .f32) (w : Vec Ideal S64x32 .f32) (p : Fin 5000) (q : Fin 32) :
    k2_pay1 (F := Ideal) x b w (ix2 p q)
      = ∑ k : Fin 64, max (x (ix2 p k) + b (ix2 (0 : Fin 1) k)) (Ideal.ofBits .f32 0x00000000#32) * w (ix2 k q) := by
  unfold k2_pay1
  refine (Ideal.matmul_constant_zero_apply dot_S5000x64_S64x32_S5000x32_1_0_0_1_n_n none _ _ (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs2_0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl _ _).trans hk
    | ⟨1, _⟩ => exact rhs2_1 _ _)
  rw [el, er]
  exact congrArg (· * w (ix2 k q)) (pre2_apply x b p k)

end Cert.GCN

end
-- ==== Proof.Region0.lean ====
/-
  The first pallas_call as one function of its two input arrays.  Its grid has ten points; point `t` stages rows
  `5000 t … 5000 t + 4999` of `x` and the whole of `W1`, and writes back rows `5000 t … 5000 t + 4999` of the product.
  A row block of a matrix product is the product of the row block, so every point writes back its block of `x · W1`,
  and the ten blocks tile the 50000 rows: the output array ends at `x · W1`.
-/
import proofs.«164812_j50663434224370_2_alg».proof.Proof.Gen.KernelIdeal.Frame
import proofs.«164812_j50663434224370_2_alg».proof.Proof.Payloads

set_option maxRecDepth 16384

noncomputable section

namespace Cert.GCN.Region0

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A block's row against `W1`'s column, read through the blocks' places in the arrays, is the whole product there. -/
theorem block_eq (a : Vec Ideal S50000x128 .f32) (w : Vec Ideal S128x64 .f32) (e0 : S5000x128.Idx → S50000x128.Idx)
    (e1 : S128x64.Idx → S128x64.Idx) (e2 : S5000x64.Idx → S50000x64.Idx) (p : Fin 5000) (q : Fin 64)
    (h0 : ∀ k : Fin 128, e0 (ix2 p k) = ix2 ((e2 (ix2 p q)) 0) k) (h1 : ∀ k : Fin 128, e1 (ix2 k q) = ix2 k ((e2 (ix2 p q)) 1)) :
    ∑ k : Fin 128, a (e0 (ix2 p k)) * w (e1 (ix2 k q)) = proj1 a w (e2 (ix2 p q)) := by
  unfold proj1
  exact Finset.sum_congr rfl fun k _ => by rw [h0, h1]; rfl

/-- The printed index maps over the ten points: `x`'s and the output's block index is `(t, 0)`, `W1`'s is `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `x · W1`. -/
theorem flushed_eq (c : Dev nD) (t : Fin cfg0.N) :
    (dat0 V c).flushed 2 t = ((cfg0.win 2).blk t).view.read (Elt Ideal) (proj1 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have h0 : ∀ k : Fin 128, ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q) = ix2 k ((((cfg0.win 2).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine (pay0_apply (iblk0 V c 0 t) (iblk0 V c 1 t) p q).trans ?_
  exact block_eq (V c main_arg0) (V c main_arg3) ((cfg0.win 0).blk t).view.emb ((cfg0.win 1).blk t).view.emb
    ((cfg0.win 2).blk t).view.emb p q h0 h1

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row `r` lies in the block of point `r / 5000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the ten points: `x · W1` of the two input arrays as the pallas_call finds them. -/
theorem final (c : Dev nD) : (dat0 V c).arrAt 2 cfg0.N = proj1 (V c main_arg0) (V c main_arg3) :=
  (dat0 V c).arrAt_eq_of_cover 2 (proj1 (V c main_arg0) (V c main_arg3)) (fun t _ => flushed_eq V c t) cover

end Cert.GCN.Region0

end
-- ==== Proof.Region1.lean ====
/-
  The second pallas_call as one function of its two input arrays.  Its grid has 85 points; point `t` stages rows
  `10000 t … 10000 t + 9999` of the gathered rows and of the column of edge weights, multiplies every row by its weight,
  and writes the rows back.  Every point writes back its block of the whole product, and the 85 blocks tile the
  850000 rows.
-/
import proofs.«164812_j50663434224370_2_alg».proof.Proof.Gen.KernelIdeal.Frame
import proofs.«164812_j50663434224370_2_alg».proof.Proof.Payloads

set_option maxRecDepth 16384

noncomputable section

namespace Cert.GCN.Region1

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A row of the block times its weight, read through the blocks' places in the arrays, is the whole product there. -/
theorem block_eq (a : Vec Ideal S850000x64 .f32) (w : Vec Ideal S850000x1 .f32) (e0 : S10000x64.Idx → S850000x64.Idx)
    (e1 : S10000x1.Idx → S850000x1.Idx) (e2 : S10000x64.Idx → S850000x64.Idx) (p : Fin 10000) (q : Fin 64)
    (h0 : e0 (ix2 p q) = e2 (ix2 p q)) (h1 : e1 (ix2 p (0 : Fin 1)) = ix2 ((e2 (ix2 p q)) 0) (0 : Fin 1)) :
    a (e0 (ix2 p q)) * w (e1 (ix2 p (0 : Fin 1))) = scale64 a w (e2 (ix2 p q)) := by
  unfold scale64
  rw [h0, h1]
  rfl

/-- The printed index maps over the grid's points. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function. -/
theorem flushed_eq (c : Dev nD) (t : Fin cfg1.N) :
    (dat1 V c).flushed 2 t = ((cfg1.win 2).blk t).view.read (Elt Ideal) (scale64 (V c main_v38) (V c main_v30)) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  refine (pay1_apply (iblk1 V c 0 t) (iblk1 V c 1 t) p q).trans ?_
  exact block_eq (V c main_v38) (V c main_v30) ((cfg1.win 0).blk t).view.emb ((cfg1.win 1).blk t).view.emb
    ((cfg1.win 2).blk t).view.emb p q h0 h1

/-- An index of the output array is in point `t`'s block iff each coordinate is in the block's range on its axis. -/
theorem mem_blk (t : Fin cfg1.N) (i : S850000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v39).slice (win1_2.rect t)).set ↔ _
  rw [View.set_slice_whole, Rect.mem_set_unit]
  exact Iff.rfl

/-- Row `r` lies in the block of point `r / 10000`. -/
theorem cover (i : S850000x64.Idx) : ∃ t : Fin cfg1.N, (cfg1.win 2).flush t = true ∧ i ∈ ((cfg1.win 2).blk t).view.set := by
  have hi0 : (i 0).val < 850000 := (i 0).isLt
  have hi1 : (i 1).val < 64 := (i 1).isLt
  have hN : grid1.N = 85 := N_1
  let t : Fin cfg1.N := ⟨(i 0).val / 10000, by show (i 0).val / 10000 < grid1.N; omega⟩
  obtain ⟨e0, e1, e2, e3, e4, e5⟩ := idx_facts t
  have eo : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the grid's points: the whole-array function of the input arrays as the pallas_call finds them. -/
theorem final (c : Dev nD) : (dat1 V c).arrAt 2 cfg1.N = scale64 (V c main_v38) (V c main_v30) :=
  (dat1 V c).arrAt_eq_of_cover 2 (scale64 (V c main_v38) (V c main_v30)) (fun t _ => flushed_eq V c t) cover

end Cert.GCN.Region1

end
-- ==== Proof.Bridge.lean ====
/-
  The five whole-array functions of the pallas_calls are the reference's own stages.

  * `x · W1` is the reference's first `dot_general` (both are `∑ k, x[r,k] · W1[k,c]` at the ideal instance);
  * scaling the gathered rows by the column `norm.reshape(E', 1)` is the reference's product with `norm[:, None]`
    broadcast over the features: both read `norm[e]` at row `e`;
  * `relu (a + b1.reshape(1, 64)) · W2` is the reference's `relu (a + b1)` followed by its second `dot_general`;
  * adding `b2.reshape(1, 32)` to every row is the reference's `+ b2`.
  The reference computes the edge weights twice, once per layer, from the same operations of the same edge list: the
  two are one array.
-/
import proofs.«164812_j50663434224370_2_alg».proof.Proof.Payloads
import proofs.«164812_j50663434224370_2_alg».proof.Proof.RefRead

noncomputable section

namespace Cert.GCN

open Cert.KernelIdeal Cert.KernelIdeal.Facts₀ Cert.KernelIdeal.Facts Idealize.ShloMosaic Idealize.ShloMosaic.ValueIdx Cert.ReferenceIdeal.ReadP

/-! ## The first projection -/

theorem proj1_eq (x0 : Vec Ideal S50000x128 .f32) (x3 : Vec Ideal S128x64 .f32) :
    proj1 x0 x3 = val_main_v7 (F := Ideal) x0 x3 := by
  funext i
  rw [val_main_v7_apply]
  unfold proj1
  refine Finset.sum_congr rfl fun k _ => ?_
  have el : lidx_main_v7 i k = ix2 (i 0) k := funext fun a => by match a with | ⟨0, _⟩ => rfl | ⟨1, _⟩ => rfl
  have er : ridx_main_v7 i k = ix2 k (i 1) := funext fun a => by match a with | ⟨0, _⟩ => rfl | ⟨1, _⟩ => rfl
  rw [el, er]
  rfl

/-! ## The edge weights as a column -/

/-- The column `norm.reshape(E', 1)` read at row `e` is `norm[e]`, and so is `norm[:, None]` broadcast over 64 features. -/
theorem scale64_eq (g : FVec Ideal S850000x64 .f32) (x1 : Vec Ideal S2x800000 .i32) :
    scale64 g (shapeCast S850000x1 (val_main_v30 (F := Ideal) x1) shapeCasts_S850000_S850000x1) = mulf g (val_main_v39 (F := Ideal) x1) := by
  funext i
  show g i * shapeCast S850000x1 (val_main_v30 (F := Ideal) x1) _ (ix2 (i 0) (0 : Fin 1)) = g i * val_main_v39 (F := Ideal) x1 i
  rw [val_main_v39_apply, val_main_v38_apply]
  refine congrArg (g i * ·) ?_
  refine shapeCast_apply _ _ _ (idx_main_v38 (idx_main_v39 i)) ?_
  rw [Shape.rowMajor_val_one, Shape.rowMajor_val_two]
  show (i 0).val = (i 0).val * 1 + 0
  omega

/-- The second layer recomputes the edge weights from the same operations of the same edge list. -/
theorem norm_again (x1 : Vec Ideal S2x800000 .i32) : val_main_v71 (F := Ideal) x1 = val_main_v30 (F := Ideal) x1 := rfl

/-- The same over 32 features, against the second layer's copy of the edge weights. -/
theorem scale32_eq (g : FVec Ideal S850000x32 .f32) (x1 : Vec Ideal S2x800000 .i32) :
    scale32 g (shapeCast S850000x1 (val_main_v30 (F := Ideal) x1) shapeCasts_S850000_S850000x1) = mulf g (val_main_v80 (F := Ideal) x1) := by
  rw [← norm_again x1]
  funext i
  show g i * shapeCast S850000x1 (val_main_v71 (F := Ideal) x1) _ (ix2 (i 0) (0 : Fin 1)) = g i * val_main_v80 (F := Ideal) x1 i
  rw [val_main_v80_apply, val_main_v79_apply]
  refine congrArg (g i * ·) ?_
  refine shapeCast_apply _ _ _ (idx_main_v79 (idx_main_v80 i)) ?_
  rw [Shape.rowMajor_val_one, Shape.rowMajor_val_two]
  show (i 0).val = (i 0).val * 1 + 0
  omega

/-! ## The fused second projection -/

theorem proj2_eq (x0 : Vec Ideal S50000x128 .f32) (x1 : Vec Ideal S2x800000 .i32) (x3 : Vec Ideal S128x64 .f32)
    (x4 : Vec Ideal S64 .f32) (x5 : Vec Ideal S64x32 .f32) :
    proj2 (val_main_v43 (F := Ideal) x0 x1 x3) (shapeCast S1x64 x4 shapeCasts_S64_S1x64) x5
      = val_main_v48 (F := Ideal) x0 x1 x3 x4 x5 := by
  funext i
  obtain ⟨r, s, rfl⟩ : ∃ (r : Fin 50000) (s : Fin 32), i = ix2 r s := ⟨i 0, i 1, eq_ix2 i⟩
  rw [val_main_v48_apply]
  show ∑ k : Fin 64, max (val_main_v43 (F := Ideal) x0 x1 x3 (ix2 r k) + shapeCast S1x64 x4 shapeCasts_S64_S1x64 (ix2 (0 : Fin 1) k))
        (Ideal.ofBits .f32 0x00000000#32) * x5 (ix2 k s)
      = ∑ k : Fin 64, val_main_v47 (F := Ideal) x0 x1 x3 x4 (lidx_main_v48 (ix2 r s) k) * x5 (ridx_main_v48 (ix2 r s) k)
  refine Finset.sum_congr rfl fun k _ => ?_
  have el : lidx_main_v48 (ix2 r s) k = ix2 r k := funext fun a => by match a with | ⟨0, _⟩ => rfl | ⟨1, _⟩ => rfl
  have er : ridx_main_v48 (ix2 r s) k = ix2 k s := funext fun a => by match a with | ⟨0, _⟩ => rfl | ⟨1, _⟩ => rfl
  rw [el, er, val_main_v47_apply, val_main_v46_apply, val_main_v45_apply, val_main_v44_apply, val_main_call1_v0_apply,
    val_main_call1_cst_apply]
  generalize val_main_v43 (F := Ideal) x0 x1 x3 = a
  have hs : shapeCast S1x64 x4 shapeCasts_S64_S1x64 (ix2 (0 : Fin 1) k) = x4 (idx_main_v44 (idx_main_v45 (ix2 r k))) :=
    shapeCast_apply _ _ _ _ (by
      rw [Shape.rowMajor_val_one, Shape.rowMajor_val_two]
      show k.val = 0 * 64 + k.val
      omega)
  rw [hs]
  rfl

/-! ## The final bias -/

theorem addBias_eq (a : FVec Ideal S50000x32 .f32) (x6 : Vec Ideal S32 .f32) :
    addBias a (shapeCast S1x32 x6 shapeCasts_S32_S1x32) = addf a (val_main_v86 (F := Ideal) x6) := by
  funext i
  show a i + shapeCast S1x32 x6 _ (ix2 (0 : Fin 1) (i 1)) = a i + val_main_v86 (F := Ideal) x6 i
  rw [val_main_v86_apply, val_main_v85_apply]
  refine congrArg (a i + ·) ?_
  refine shapeCast_apply _ _ _ (idx_main_v85 (idx_main_v86 i)) ?_
  rw [Shape.rowMajor_val_one, Shape.rowMajor_val_two]
  show (i 1).val = 0 * 32 + (i 1).val
  omega

end Cert.GCN

end
-- ==== Proof.ChainB.lean ====
/-
  The kernel program's buffers from the first pallas_call to the entry of the third.  The first pallas_call leaves
  `x · W1`, which is the reference's first `dot_general`; the host gathers its rows by the edges' source nodes, as the
  reference does; the second pallas_call scales every gathered row by its edge's weight, which is the reference's product
  with the weights broadcast over the features; the host scatter-adds the scaled rows to the edges' destination nodes,
  as the reference does, and lays the first bias out as a row.  The edge list, the edge weights and the remaining
  arguments ride along untouched.
-/
import proofs.«164812_j50663434224370_2_alg».proof.Proof.ChainA
import proofs.«164812_j50663434224370_2_alg».proof.Proof.Region0
import proofs.«164812_j50663434224370_2_alg».proof.Proof.Region1
import proofs.«164812_j50663434224370_2_alg».proof.Proof.Bridge

set_option maxRecDepth 16384
set_option quotPrecheck false

noncomputable section

namespace Cert.GCN.Chain

open Cert.KernelIdeal Cert.KernelIdeal.Gen Cert.GCN
open Idealize.ShloMosaic Idealize.ShloMosaic.TcCoe Idealize.ShloMosaic.StableHlo Idealize.SL.Sem
open Cert.ReferenceIdeal.ReadP

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)

/-! ## After the first pallas_call -/

/-- The first projection is the reference's first `dot_general`. -/
theorem W4_v31 : W4 m ρ c (Proc.devRef .tc main_v31) = val_main_v7 (F := Ideal) A0 A3 :=
  (W4_arr m ρ c 2).trans ((Region0.final (V3 m ρ) c).trans
    ((congrArg₂ proj1 (W3_arg0 m ρ c) (W3_arg3 m ρ c)).trans (proj1_eq _ _)))
theorem W4_v3 : W4 m ρ c (Proc.devRef .tc main_v3) = val_main_v3 (F := Ideal) A1 :=
  (W4_of_ne m ρ c main_v3 (by decide)).trans (W3_v3 m ρ c)
theorem W4_v6 : W4 m ρ c (Proc.devRef .tc main_v6) = val_main_v6 (F := Ideal) A1 :=
  (W4_of_ne m ρ c main_v6 (by decide)).trans (W3_v6 m ρ c)
theorem W4_v30 : W4 m ρ c (Proc.devRef .tc main_v30) = shapeCast S850000x1 (val_main_v30 (F := Ideal) A1) shapeCasts_S850000_S850000x1 :=
  (W4_of_ne m ρ c main_v30 (by decide)).trans (W3_v30 m ρ c)
theorem W4_arg4 : W4 m ρ c (Proc.devRef .tc main_arg4) = A4 :=
  (W4_of_ne m ρ c main_arg4 (by decide)).trans (W3_arg4 m ρ c)
theorem W4_arg5 : W4 m ρ c (Proc.devRef .tc main_arg5) = A5 :=
  (W4_of_ne m ρ c main_arg5 (by decide)).trans (W3_arg5 m ρ c)
theorem W4_arg6 : W4 m ρ c (Proc.devRef .tc main_arg6) = A6 :=
  (W4_of_ne m ρ c main_arg6 (by decide)).trans (W3_arg6 m ρ c)

/-! ## After the gather of the first layer -/

/-- The rows of `x · W1` gathered by the edges' source nodes. -/
theorem W5_v38 : W5 m ρ c (Proc.devRef .tc main_v38) = val_main_v37 (F := Ideal) A0 A1 A3 := by
  dsimp only [W5, hostOps1]
  after_results
  rw [W4_v31 m ρ c, W4_v3 m ρ c]
  rfl
theorem W5_v3 : W5 m ρ c (Proc.devRef .tc main_v3) = val_main_v3 (F := Ideal) A1 := by
  dsimp only [W5, hostOps1]
  after_results
  exact W4_v3 m ρ c
theorem W5_v6 : W5 m ρ c (Proc.devRef .tc main_v6) = val_main_v6 (F := Ideal) A1 := by
  dsimp only [W5, hostOps1]
  after_results
  exact W4_v6 m ρ c
theorem W5_v30 : W5 m ρ c (Proc.devRef .tc main_v30) = shapeCast S850000x1 (val_main_v30 (F := Ideal) A1) shapeCasts_S850000_S850000x1 := by
  dsimp only [W5, hostOps1]
  after_results
  exact W4_v30 m ρ c
theorem W5_arg4 : W5 m ρ c (Proc.devRef .tc main_arg4) = A4 := by
  dsimp only [W5, hostOps1]
  after_results
  exact W4_arg4 m ρ c
theorem W5_arg5 : W5 m ρ c (Proc.devRef .tc main_arg5) = A5 := by
  dsimp only [W5, hostOps1]
  after_results
  exact W4_arg5 m ρ c
theorem W5_arg6 : W5 m ρ c (Proc.devRef .tc main_arg6) = A6 := by
  dsimp only [W5, hostOps1]
  after_results
  exact W4_arg6 m ρ c

/-! ## After the second pallas_call -/

/-- The gathered rows scaled by the edge weights: the reference's messages of the first layer. -/
theorem W6_v39 : W6 m ρ c (Proc.devRef .tc main_v39) = val_main_v40 (F := Ideal) A0 A1 A3 :=
  (W6_arr m ρ c 2).trans ((Region1.final (V5 m ρ) c).trans
    ((congrArg₂ scale64 (W5_v38 m ρ c) (W5_v30 m ρ c)).trans (scale64_eq _ _)))
theorem W6_v3 : W6 m ρ c (Proc.devRef .tc main_v3) = val_main_v3 (F := Ideal) A1 :=
  (W6_of_ne m ρ c main_v3 (by decide)).trans (W5_v3 m ρ c)
theorem W6_v6 : W6 m ρ c (Proc.devRef .tc main_v6) = val_main_v6 (F := Ideal) A1 :=
  (W6_of_ne m ρ c main_v6 (by decide)).trans (W5_v6 m ρ c)
/-- The edge weights are an input of the second pallas_call: staged, never written back. -/
theorem W6_v30 : W6 m ρ c (Proc.devRef .tc main_v30) = shapeCast S850000x1 (val_main_v30 (F := Ideal) A1) shapeCasts_S850000_S850000x1 :=
  (W6_arr m ρ c 1).trans ((((dat1 (V5 m ρ) c).arrAt_in 1 rfl _).trans (A_eq1 (V5 m ρ) c 1)).trans (W5_v30 m ρ c))
theorem W6_arg4 : W6 m ρ c (Proc.devRef .tc main_arg4) = A4 :=
  (W6_of_ne m ρ c main_arg4 (by decide)).trans (W5_arg4 m ρ c)
theorem W6_arg5 : W6 m ρ c (Proc.devRef .tc main_arg5) = A5 :=
  (W6_of_ne m ρ c main_arg5 (by decide)).trans (W5_arg5 m ρ c)
theorem W6_arg6 : W6 m ρ c (Proc.devRef .tc main_arg6) = A6 :=
  (W6_of_ne m ρ c main_arg6 (by decide)).trans (W5_arg6 m ρ c)

/-! ## After the scatter-add of the first layer -/

/-- The messages summed at their destination nodes. -/
theorem W7_v42 : W7 m ρ c (Proc.devRef .tc main_v42) = val_main_v43 (F := Ideal) A0 A1 A3 := by
  dsimp only [W7, hostOps2]
  after_results
  rw [W6_v39 m ρ c, W6_v6 m ρ c]
  rfl
/-- The first bias as a row. -/
theorem W7_v43 : W7 m ρ c (Proc.devRef .tc main_v43) = shapeCast S1x64 A4 shapeCasts_S64_S1x64 := by
  dsimp only [W7, hostOps2]
  after_results
  rw [W6_arg4 m ρ c]
  rfl
theorem W7_v3 : W7 m ρ c (Proc.devRef .tc main_v3) = val_main_v3 (F := Ideal) A1 := by
  dsimp only [W7, hostOps2]
  after_results
  exact W6_v3 m ρ c
theorem W7_v6 : W7 m ρ c (Proc.devRef .tc main_v6) = val_main_v6 (F := Ideal) A1 := by
  dsimp only [W7, hostOps2]
  after_results
  exact W6_v6 m ρ c
theorem W7_v30 : W7 m ρ c (Proc.devRef .tc main_v30) = shapeCast S850000x1 (val_main_v30 (F := Ideal) A1) shapeCasts_S850000_S850000x1 := by
  dsimp only [W7, hostOps2]
  after_results
  exact W6_v30 m ρ c
theorem W7_arg5 : W7 m ρ c (Proc.devRef .tc main_arg5) = A5 := by
  dsimp only [W7, hostOps2]
  after_results
  exact W6_arg5 m ρ c
theorem W7_arg6 : W7 m ρ c (Proc.devRef .tc main_arg6) = A6 := by
  dsimp only [W7, hostOps2]
  after_results
  exact W6_arg6 m ρ c

end Cert.GCN.Chain

end
-- ==== Proof.Region2.lean ====
/-
  The third pallas_call as one function of its three input arrays.  Its grid has ten points; point `t` stages rows
  `5000 t … 5000 t + 4999` of the summed messages, the bias row and the whole of `W2`; it adds the bias to every row,
  rectifies, and multiplies by `W2`.  A row block of the product is the product of the row block, so every point writes
  back its block of `relu (a + b1) · W2`, and the ten blocks tile the 50000 rows.
-/
import proofs.«164812_j50663434224370_2_alg».proof.Proof.Gen.KernelIdeal.Frame
import proofs.«164812_j50663434224370_2_alg».proof.Proof.Payloads

set_option maxRecDepth 16384

noncomputable section

namespace Cert.GCN.Region2

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A block's rectified, biased row against `W2`'s column, read through the blocks' places in the arrays, is the whole function there. -/
theorem block_eq (a : Vec Ideal S50000x64 .f32) (b : Vec Ideal S1x64 .f32) (w : Vec Ideal S64x32 .f32) (e0 : S5000x64.Idx → S50000x64.Idx)
    (e1 : S1x64.Idx → S1x64.Idx) (e2 : S64x32.Idx → S64x32.Idx) (e3 : S5000x32.Idx → S50000x32.Idx) (p : Fin 5000) (q : Fin 32)
    (h0 : ∀ k : Fin 64, e0 (ix2 p k) = ix2 ((e3 (ix2 p q)) 0) k) (h1 : ∀ k : Fin 64, e1 (ix2 (0 : Fin 1) k) = ix2 (0 : Fin 1) k)
    (h2 : ∀ k : Fin 64, e2 (ix2 k q) = ix2 k ((e3 (ix2 p q)) 1)) :
    ∑ k : Fin 64, max (a (e0 (ix2 p k)) + b (e1 (ix2 (0 : Fin 1) k))) (Ideal.ofBits .f32 0x00000000#32) * w (e2 (ix2 k q))
      = proj2 a b w (e3 (ix2 p q)) := by
  unfold proj2
  exact Finset.sum_congr rfl fun k _ => by rw [h0, h1, h2]; rfl

/-- The printed index maps over the grid's points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole-array function. -/
theorem flushed_eq (c : Dev nD) (t : Fin cfg2.N) :
    (dat2 V c).flushed 3 t = ((cfg2.win 3).blk t).view.read (Elt Ideal) (proj2 (V c main_v42) (V c main_v43) (V c main_arg5)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x32) hz]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  have h0 : ∀ k : Fin 64, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have h1 : ∀ k : Fin 64, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  have h2 : ∀ k : Fin 64, ((cfg2.win 2).blk t).view.emb (ix2 k q) = ix2 k ((((cfg2.win 3).blk t).view.emb (ix2 p q)) 1) := fun k => by
    funext a; apply Fin.ext
    match a with
    | ⟨0, _⟩ => show win2_2.index t (0 : Fin 2) * 64 + 1 * k.val = k.val; omega
    | ⟨1, _⟩ => show win2_2.index t (1 : Fin 2) * 32 + 1 * q.val = win2_3.index t (1 : Fin 2) * 32 + 1 * q.val; omega
  refine (pay2_apply (iblk2 V c 0 t) (iblk2 V c 1 t) (iblk2 V c 2 t) p q).trans ?_
  exact block_eq (V c main_v42) (V c main_v43) (V c main_arg5) ((cfg2.win 0).blk t).view.emb ((cfg2.win 1).blk t).view.emb
    ((cfg2.win 2).blk t).view.emb ((cfg2.win 3).blk t).view.emb p q h0 h1 h2

/-- An index of the output array is in point `t`'s block iff each coordinate is in the block's range on its axis. -/
theorem mem_blk (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v44).slice (win2_3.rect t)).set ↔ _
  rw [View.set_slice_whole, Rect.mem_set_unit]
  exact Iff.rfl

/-- Row `r` lies in the block of point `r / 5000`. -/
theorem cover (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : grid2.N = 10 := N_2
  let t : Fin cfg2.N := ⟨(i 0).val / 5000, by show (i 0).val / 5000 < grid2.N; omega⟩
  obtain ⟨e0, e1, e2, e3, e4, e5, e6, e7⟩ := idx_facts t
  have eo : win2_3.index t (0 : Fin 2) = (i 0).val / 5000 := e6
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- The output array after the grid's points: the whole-array function of the input arrays as the pallas_call finds them. -/
theorem final (c : Dev nD) : (dat2 V c).arrAt 3 cfg2.N = proj2 (V c main_v42) (V c main_v43) (V c main_arg5) :=
  (dat2 V c).arrAt_eq_of_cover 3 (proj2 (V c main_v42) (V c main_v43) (V c main_arg5)) (fun t _ => flushed_eq V c t) cover

end Cert.GCN.Region2

end
-- ==== Proof.Region3.lean ====
/-
  The fourth pallas_call as one function of its two input arrays.  Its grid has 85 points; point `t` stages rows
  `10000 t … 10000 t + 9999` of the gathered rows and of the column of edge weights, multiplies every row by its weight,
  and writes the rows back.  Every point writes back its block of the whole product, and the 85 blocks tile the
  850000 rows.
-/
import proofs.«164812_j50663434224370_2_alg».proof.Proof.Gen.KernelIdeal.Frame
import proofs.«164812_j50663434224370_2_alg».proof.Proof.Payloads

set_option maxRecDepth 16384

noncomputable section

namespace Cert.GCN.Region3

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A row of the block times its weight, read through the blocks' places in the arrays, is the whole product there. -/
theorem block_eq (a : Vec Ideal S850000x32 .f32) (w : Vec Ideal S850000x1 .f32) (e0 : S10000x32.Idx → S850000x32.Idx)
    (e1 : S10000x1.Idx → S850000x1.Idx) (e2 : S10000x32.Idx → S850000x32.Idx) (p : Fin 10000) (q : Fin 32)
    (h0 : e0 (ix2 p q) = e2 (ix2 p q)) (h1 : e1 (ix2 p (0 : Fin 1)) = ix2 ((e2 (ix2 p q)) 0) (0 : Fin 1)) :
    a (e0 (ix2 p q)) * w (e1 (ix2 p (0 : Fin 1))) = scale32 a w (e2 (ix2 p q)) := by
  unfold scale32
  rw [h0, h1]
  rfl

/-- The printed index maps over the grid's points. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function. -/
theorem flushed_eq (c : Dev nD) (t : Fin cfg3.N) :
    (dat3 V c).flushed 2 t = ((cfg3.win 2).blk t).view.read (Elt Ideal) (scale32 (V c main_v51) (V c main_v30)) := by
  show (cfg3.win 2).cut (grid3.coords t) ((dat3 V c).after 2 t) = _
  rw [after3_2]
  unfold out3_2
  rw [View.canon_unit_zero hz]
  simp only [View.ld_unit_zero (S := S10000x32) hz, View.ld_unit_zero (S := S10000x1) hz]
  obtain ⟨e0, e1, e2, e3, e4, e5⟩ := idx_facts t
  funext j
  obtain ⟨p, q, rfl⟩ : ∃ (p : Fin 10000) (q : Fin 32), j = ix2 p q := ⟨j 0, j 1, eq_ix2 j⟩
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * q.val = win3_2.index t (1 : Fin 2) * 32 + 1 * q.val; omega
  have h1 : ((cfg3.win 1).blk t).view.emb (ix2 p (0 : Fin 1)) = ix2 ((((cfg3.win 2).blk t).view.emb (ix2 p q)) 0) (0 : Fin 1) := by
    funext a; apply Fin.ext
    match a with
    | ⟨0, _⟩ => show win3_1.index t (0 : Fin 2) * 10000 + 1 * p.val = win3_2.index t (0 : Fin 2) * 10000 + 1 * p.val; omega
    | ⟨1, _⟩ => show win3_1.index t (1 : Fin 2) * 1 + 1 * 0 = 0; omega
  refine (pay3_apply (iblk3 V c 0 t) (iblk3 V c 1 t) p q).trans ?_
  exact block_eq (V c main_v51) (V c main_v30) ((cfg3.win 0).blk t).view.emb ((cfg3.win 1).blk t).view.emb
    ((cfg3.win 2).blk t).view.emb p q h0 h1

/-- An index of the output array is in point `t`'s block iff each coordinate is in the block's range on its axis. -/
theorem mem_blk (t : Fin cfg3.N) (i : S850000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v52).slice (win3_2.rect t)).set ↔ _
  rw [View.set_slice_whole, Rect.mem_set_unit]
  exact Iff.rfl

/-- Row `r` lies in the block of point `r / 10000`. -/
theorem cover (i : S850000x32.Idx) : ∃ t : Fin cfg3.N, (cfg3.win 2).flush t = true ∧ i ∈ ((cfg3.win 2).blk t).view.set := by
  have hi0 : (i 0).val < 850000 := (i 0).isLt
  have hi1 : (i 1).val < 32 := (i 1).isLt
  have hN : grid3.N = 85 := N_3
  let t : Fin cfg3.N := ⟨(i 0).val / 10000, by show (i 0).val / 10000 < grid3.N; omega⟩
  obtain ⟨e0, e1, e2, e3, e4, e5⟩ := idx_facts t
  have eo : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- The output array after the grid's points: the whole-array function of the input arrays as the pallas_call finds them. -/
theorem final (c : Dev nD) : (dat3 V c).arrAt 2 cfg3.N = scale32 (V c main_v51) (V c main_v30) :=
  (dat3 V c).arrAt_eq_of_cover 2 (scale32 (V c main_v51) (V c main_v30)) (fun t _ => flushed_eq V c t) cover

end Cert.GCN.Region3

end
-- ==== Proof.Region4.lean ====
/-
  The last pallas_call as one function of its two input arrays.  Its grid has ten points; point `t` stages rows
  `5000 t … 5000 t + 4999` of the summed messages and the bias row, adds the bias to every row and writes the rows
  back; the ten blocks tile the 50000 rows.
-/
import proofs.«164812_j50663434224370_2_alg».proof.Proof.Gen.KernelIdeal.Frame
import proofs.«164812_j50663434224370_2_alg».proof.Proof.Payloads

set_option maxRecDepth 16384

noncomputable section

namespace Cert.GCN.Region4

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A row of the block plus the bias row, read through the blocks' places in the arrays, is the whole sum there. -/
theorem block_eq (a : Vec Ideal S50000x32 .f32) (b : Vec Ideal S1x32 .f32) (e0 : S5000x32.Idx → S50000x32.Idx)
    (e1 : S1x32.Idx → S1x32.Idx) (e2 : S5000x32.Idx → S50000x32.Idx) (p : Fin 5000) (q : Fin 32)
    (h0 : e0 (ix2 p q) = e2 (ix2 p q)) (h1 : e1 (ix2 (0 : Fin 1) q) = ix2 (0 : Fin 1) ((e2 (ix2 p q)) 1)) :
    a (e0 (ix2 p q)) + b (e1 (ix2 (0 : Fin 1) q)) = addBias a b (e2 (ix2 p q)) := by
  unfold addBias
  rw [h0, h1]
  rfl

/-- The printed index maps over the grid's points. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole-array function. -/
theorem flushed_eq (c : Dev nD) (t : Fin cfg4.N) :
    (dat4 V c).flushed 2 t = ((cfg4.win 2).blk t).view.read (Elt Ideal) (addBias (V c main_v55) (V c main_v56)) := by
  show (cfg4.win 2).cut (grid4.coords t) ((dat4 V c).after 2 t) = _
  rw [after4_2]
  unfold out4_2
  rw [View.canon_unit_zero hz]
  simp only [View.ld_unit_zero (S := S5000x32) hz, View.ld_unit_zero (S := S1x32) hz]
  obtain ⟨e0, e1, e2, e3, e4, e5⟩ := idx_facts t
  funext j
  obtain ⟨p, q, rfl⟩ : ∃ (p : Fin 5000) (q : Fin 32), j = ix2 p q := ⟨j 0, j 1, eq_ix2 j⟩
  have h0 : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 32 + 1 * q.val = win4_2.index t (1 : Fin 2) * 32 + 1 * q.val; omega
  have h1 : ((cfg4.win 1).blk t).view.emb (ix2 (0 : Fin 1) q) = ix2 (0 : Fin 1) ((((cfg4.win 2).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 32 + 1 * q.val = win4_2.index t (1 : Fin 2) * 32 + 1 * q.val; omega
  refine (pay4_apply (iblk4 V c 0 t) (iblk4 V c 1 t) p q).trans ?_
  exact block_eq (V c main_v55) (V c main_v56) ((cfg4.win 0).blk t).view.emb ((cfg4.win 1).blk t).view.emb
    ((cfg4.win 2).blk t).view.emb p q h0 h1

/-- An index of the output array is in point `t`'s block iff each coordinate is in the block's range on its axis. -/
theorem mem_blk (t : Fin cfg4.N) (i : S50000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v57).slice (win4_2.rect t)).set ↔ _
  rw [View.set_slice_whole, Rect.mem_set_unit]
  exact Iff.rfl

/-- Row `r` lies in the block of point `r / 5000`. -/
theorem cover (i : S50000x32.Idx) : ∃ t : Fin cfg4.N, (cfg4.win 2).flush t = true ∧ i ∈ ((cfg4.win 2).blk t).view.set := by
  have hi0 : (i 0).val < 50000 := (i 0).isLt
  have hi1 : (i 1).val < 32 := (i 1).isLt
  have hN : grid4.N = 10 := N_4
  let t : Fin cfg4.N := ⟨(i 0).val / 5000, by show (i 0).val / 5000 < grid4.N; omega⟩
  obtain ⟨e0, e1, e2, e3, e4, e5⟩ := idx_facts t
  have eo : win4_2.index t (0 : Fin 2) = (i 0).val / 5000 := e4
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 32 ≤ (i 1).val ∧ (i 1).val < win4_2.index t (1 : Fin 2) * 32 + 32; omega

/-- The output array after the grid's points: the whole-array function of the input arrays as the pallas_call finds them. -/
theorem final (c : Dev nD) : (dat4 V c).arrAt 2 cfg4.N = addBias (V c main_v55) (V c main_v56) :=
  (dat4 V c).arrAt_eq_of_cover 2 (addBias (V c main_v55) (V c main_v56)) (fun t _ => flushed_eq V c t) cover

end Cert.GCN.Region4

end
-- ==== Proof.ChainC.lean ====
/-
  The kernel program's buffers from the third pallas_call to the return.  The third pallas_call adds the first bias,
  rectifies and projects by `W2`: the reference's `relu (out + b1)` followed by its second `dot_general`.  The second
  layer then repeats the first: gather by source node, scale by the edge weights (which the reference recomputes, to
  the same array), scatter-add to the destination nodes, and the last pallas_call adds the second bias to every row —
  the reference's result.
-/
import proofs.«164812_j50663434224370_2_alg».proof.Proof.ChainB
import proofs.«164812_j50663434224370_2_alg».proof.Proof.Region2
import proofs.«164812_j50663434224370_2_alg».proof.Proof.Region3
import proofs.«164812_j50663434224370_2_alg».proof.Proof.Region4
import proofs.«164812_j50663434224370_2_alg».proof.Proof.Bridge

set_option maxRecDepth 16384
set_option quotPrecheck false

noncomputable section

namespace Cert.GCN.Chain

open Cert.KernelIdeal Cert.KernelIdeal.Gen Cert.GCN
open Idealize.ShloMosaic Idealize.ShloMosaic.TcCoe Idealize.ShloMosaic.StableHlo Idealize.SL.Sem
open Cert.ReferenceIdeal.ReadP

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)

theorem congr3 {α β γ δ : Sort _} (f : α → β → γ → δ) {a a' : α} {b b' : β} {e e' : γ} (ha : a = a') (hb : b = b') (he : e = e') :
    f a b e = f a' b' e' := by subst ha hb he; rfl

/-! ## After the third pallas_call -/

/-- The fused bias, rectifier and second projection: the reference's second `dot_general`. -/
theorem W8_v44 : W8 m ρ c (Proc.devRef .tc main_v44) = val_main_v48 (F := Ideal) A0 A1 A3 A4 A5 :=
  (W8_arr m ρ c 3).trans ((Region2.final (V7 m ρ) c).trans
    ((congr3 proj2 (W7_v42 m ρ c) (W7_v43 m ρ c) (W7_arg5 m ρ c)).trans (proj2_eq _ _ _ _ _)))
theorem W8_v3 : W8 m ρ c (Proc.devRef .tc main_v3) = val_main_v3 (F := Ideal) A1 :=
  (W8_of_ne m ρ c main_v3 (by decide)).trans (W7_v3 m ρ c)
theorem W8_v6 : W8 m ρ c (Proc.devRef .tc main_v6) = val_main_v6 (F := Ideal) A1 :=
  (W8_of_ne m ρ c main_v6 (by decide)).trans (W7_v6 m ρ c)
theorem W8_v30 : W8 m ρ c (Proc.devRef .tc main_v30) = shapeCast S850000x1 (val_main_v30 (F := Ideal) A1) shapeCasts_S850000_S850000x1 :=
  (W8_of_ne m ρ c main_v30 (by decide)).trans (W7_v30 m ρ c)
theorem W8_arg6 : W8 m ρ c (Proc.devRef .tc main_arg6) = A6 :=
  (W8_of_ne m ρ c main_arg6 (by decide)).trans (W7_arg6 m ρ c)

/-! ## After the gather of the second layer -/

theorem W9_v51 : W9 m ρ c (Proc.devRef .tc main_v51) = val_main_v78 (F := Ideal) A0 A1 A3 A4 A5 := by
  dsimp only [W9, hostOps3]
  after_results
  rw [W8_v44 m ρ c, W8_v3 m ρ c]
  rfl
theorem W9_v6 : W9 m ρ c (Proc.devRef .tc main_v6) = val_main_v6 (F := Ideal) A1 := by
  dsimp only [W9, hostOps3]
  after_results
  exact W8_v6 m ρ c
theorem W9_v30 : W9 m ρ c (Proc.devRef .tc main_v30) = shapeCast S850000x1 (val_main_v30 (F := Ideal) A1) shapeCasts_S850000_S850000x1 := by
  dsimp only [W9, hostOps3]
  after_results
  exact W8_v30 m ρ c
theorem W9_arg6 : W9 m ρ c (Proc.devRef .tc main_arg6) = A6 := by
  dsimp only [W9, hostOps3]
  after_results
  exact W8_arg6 m ρ c

/-! ## After the fourth pallas_call -/

theorem W10_v52 : W10 m ρ c (Proc.devRef .tc main_v52) = val_main_v81 (F := Ideal) A0 A1 A3 A4 A5 :=
  (W10_arr m ρ c 2).trans ((Region3.final (V9 m ρ) c).trans
    ((congrArg₂ scale32 (W9_v51 m ρ c) (W9_v30 m ρ c)).trans (scale32_eq _ _)))
theorem W10_v6 : W10 m ρ c (Proc.devRef .tc main_v6) = val_main_v6 (F := Ideal) A1 :=
  (W10_of_ne m ρ c main_v6 (by decide)).trans (W9_v6 m ρ c)
theorem W10_arg6 : W10 m ρ c (Proc.devRef .tc main_arg6) = A6 :=
  (W10_of_ne m ρ c main_arg6 (by decide)).trans (W9_arg6 m ρ c)

/-! ## After the scatter-add of the second layer -/

theorem W11_v55 : W11 m ρ c (Proc.devRef .tc main_v55) = val_main_v84 (F := Ideal) A0 A1 A3 A4 A5 := by
  dsimp only [W11, hostOps4]
  after_results
  rw [W10_v52 m ρ c, W10_v6 m ρ c]
  rfl
/-- The second bias as a row. -/
theorem W11_v56 : W11 m ρ c (Proc.devRef .tc main_v56) = shapeCast S1x32 A6 shapeCasts_S32_S1x32 := by
  dsimp only [W11, hostOps4]
  after_results
  rw [W10_arg6 m ρ c]
  rfl

/-! ## The result -/

/-- The last pallas_call adds the second bias: the result array holds the reference's result. -/
theorem W12_v57 : W12 m ρ c (Proc.devRef .tc main_v57) = val_main_v87 (F := Ideal) A0 A1 A3 A4 A5 A6 :=
  (W12_arr m ρ c 2).trans ((Region4.final (V11 m ρ) c).trans
    ((congrArg₂ addBias (W11_v55 m ρ c) (W11_v56 m ρ c)).trans (addBias_eq _ _)))

end Cert.GCN.Chain

end
-- ==== Proof.lean ====
/-
  A two-layer graph convolution over 50000 nodes and 850000 edges (the edge list with one self loop per node), the kernel
  program against its jnp reference, at the ideal instance (floats are extended reals, every operation exact).

  Both programs compute, per layer, `scatter_add (gather (h · W) src · norm) dst + b` with the edge weights
  `norm = dinv[src] · dinv[dst]`, `dinv = where (deg > 0, rsqrt deg, 0)`, and a rectifier between the layers.  The kernel
  program runs the two projections, the two edge scalings and the final bias add as pallas_calls over row blocks, and
  the gathers and scatter-adds on the host, as the reference does.  Operation by operation the two programs are the
  same function of the arguments: a row block of a matrix product is the product of the row block, a row-blocked
  pointwise product is the pointwise product, the blocks tile their arrays, a change of float format is the identity and
  a matrix product into a zero accumulator is the plain sum.  No law that needs finiteness is used, so the
  precondition is never opened.

  * `Proof/KernelRun.lean`: the idealized kernel's run with the result array read at the last segment boundary.
  * `Proof/Payloads.lean`: the five kernel bodies at one element, and the five whole-array functions.
  * `Proof/Region0.lean` … `Region4.lean`: each pallas_call leaves its whole-array function of its input arrays.
  * `Proof/Bridge.lean`: those functions are the reference's own stages.
  * `Proof/ChainA.lean`, `ChainB.lean`, `ChainC.lean`: the buffers at the twelve segment boundaries, each the reference's
    stage of the same name; the last is the result.
  * `Proof/RefRun.lean`, `RefRead.lean`: the reference's run and its stages.
  Here: the three frames, the (empty) idealization ledger, and the two runs side by side.
-/
import proofs.«164812_j50663434224370_2_alg».proof.Defs
import proofs.«164812_j50663434224370_2_alg».proof.Proof.Gen.Kernel
import proofs.«164812_j50663434224370_2_alg».proof.Proof.Gen.Kernel.Frame
import proofs.«164812_j50663434224370_2_alg».proof.Proof.Gen.KernelIdeal
import proofs.«164812_j50663434224370_2_alg».proof.Proof.Gen.KernelIdeal.Frame
import proofs.«164812_j50663434224370_2_alg».proof.Proof.Gen.ReferenceIdeal
import proofs.«164812_j50663434224370_2_alg».proof.Proof.Gen.Pre_finite_inputs
import proofs.«164812_j50663434224370_2_alg».proof.Proof.KernelRun
import proofs.«164812_j50663434224370_2_alg».proof.Proof.RefRun
import proofs.«164812_j50663434224370_2_alg».proof.Proof.RefRead
import proofs.«164812_j50663434224370_2_alg».proof.Proof.ChainC
import Idealize.ShloMosaic.Adequacy
import Idealize.ShloMosaic.Init

noncomputable section

namespace Cert.Proof

open Idealize.ShloMosaic Idealize.SL.Sem

/-- The word-level kernel terminates, nothing faulting, its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read at the ideal instance. -/
theorem preserves : Cert.preserves_Kernel_KernelIdeal := trivial

/-- From memories that agree on the arguments both programs end with the result array at the reference's last stage of
    the arguments: the kernel by its boundary-by-boundary reading, the reference by its run. -/
theorem algebraic : Cert.algebraic_KernelIdeal_ReferenceIdeal := by
  intro m ρ m' ρ' _ hagree
  refine ⟨fun c => Cert.ReferenceIdeal.ReadP.val_main_v87 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.GCN.Chain.W12_v57 m ρ c), (h c).2⟩)
      (Cert.KernelIdeal.RunV.run_named (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v87_eq, (hagree c).1, (hagree c).2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
